-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignDot.lean ====
/-
  The binarized linear layer as one function of its three arrays, over the extended reals, and the one law
  its two spellings differ by.

  An entry is binarized to its sign: plus one where it is positive, minus one everywhere else (zero included,
  and minus infinity; plus infinity is positive). Entry (r, q) of the result is the sum over the 4096 inner
  positions k of sign(X r k) · sign(W k q), plus the bias at column q. The sum may be taken in four consecutive
  stretches of 1024 positions; on the extended reals addition is commutative and associative without any
  finiteness, so regrouping a finite sum is free.

  The two signs are spelt with bit patterns of two float formats (a 16-bit and a 32-bit pattern of one, and of minus
  one); both patterns of one denote the real 1 and both patterns of minus one the real −1.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.SignDot

open Idealize.ShloMosaic Idealize.ShloMosaic.ValueIdx

/-- The 32-bit pattern of minus one denotes the real −1. -/
theorem ofBits_neg_one_f32 : Ideal.ofBits .f32 0xBF800000#32 = ((-(1 : ℝ)) : EReal) := by
  simp [Ideal.ofBits, Ideal.ieee, -EReal.coe_mul, -EReal.coe_neg]; norm_num

/-- The sign of an extended real: one where it is positive, minus one elsewhere. -/
def sgn (x : EReal) : EReal :=
  Scalar.select (Ideal.cmp .ogt x (Ideal.ofBits .f32 0x00000000#32)) (Ideal.ofBits .f32 0x3F800000#32)
    (Ideal.ofBits .f32 0xBF800000#32)

/-- Spelt with the 16-bit patterns of one and minus one it is the same function. -/
theorem sgn_of_bf16 (x : EReal) :
    Scalar.select (Ideal.cmp .ogt x (Ideal.ofBits .f32 0x00000000#32)) (Ideal.ofBits .bf16 0x3F80#16)
      (Ideal.ofBits .bf16 0xBF80#16) = sgn x := by
  unfold sgn
  rw [Ideal.ofBits_one_bf16, Ideal.ofBits_one_f32, Ideal.ofBits_neg_one_bf16, ofBits_neg_one_f32]

/-- The shapes of the activations (and of the result), of the weights, of the bias. -/
abbrev SX : Shape := ⟨2, ![8192, 4096]⟩
abbrev SW : Shape := ⟨2, ![4096, 4096]⟩
abbrev SB : Shape := ⟨1, ![4096]⟩

/-- The layer: entry (r, q) is Σₖ sign(X r k) · sign(W k q) + bias q. -/
def binLinear (X : SX.Idx → EReal) (W : SW.Idx → EReal) (b : SB.Idx → EReal) : SX.Idx → EReal :=
  fun i => (∑ k : Fin 4096, sgn (X (ix2 (i 0) k)) * sgn (W (ix2 k (i 1)))) + b (ix1 (i 1))

/-- Position `kk` of stretch `s` among the 4096 inner positions. -/
def pos (s : Fin 4) (kk : Fin 1024) : Fin 4096 := ⟨1024 * s.val + kk.val, by have := s.isLt; have := kk.isLt; omega⟩

/-- A sum over the 4096 inner positions is the sum of its four stretches of 1024. -/
theorem sum_stretches (f : Fin 4096 → EReal) : ∑ k : Fin 4096, f k = ∑ s : Fin 4, ∑ kk : Fin 1024, f (pos s kk) := by
  rw [← Fintype.sum_prod_type' (f := fun (s : Fin 4) (kk : Fin 1024) => f (pos s kk))]
  rw [← Equiv.sum_comp (finProdFinEquiv (m := 4) (n := 1024)) f]
  refine Finset.sum_congr rfl fun p _ => congrArg f (Fin.ext ?_)
  show p.2.val + 1024 * p.1.val = 1024 * p.1.val + p.2.val
  omega

/-- Stretch `s` of the inner sum at row r and column q. -/
def stretchDot (X : SX.Idx → EReal) (W : SW.Idx → EReal) (r : Fin 8192) (q : Fin 4096) (s : Fin 4) : EReal :=
  ∑ kk : Fin 1024, sgn (X (ix2 r (pos s kk))) * sgn (W (ix2 (pos s kk) q))

/-- The layer at entry (r, q): its four stretches added first to last, then the bias at column q. -/
theorem layer_apply (X : SX.Idx → EReal) (W : SW.Idx → EReal) (b : SB.Idx → EReal) (r : Fin 8192) (q : Fin 4096) :
    binLinear X W b (ix2 r q)
      = (stretchDot X W r q 0 + stretchDot X W r q 1 + stretchDot X W r q 2 + stretchDot X W r q 3) + b (ix1 q) := by
  unfold binLinear
  rw [sum_stretches, Fin.sum_univ_four]
  rfl

end Cert.SignDot

end
-- ==== Proof.RefIsSpec.lean ====
/-
  The reference, read one operation at a time, is the binarized linear layer of its three arguments: each operand of
  the one matrix product is the sign of an argument's entry (a comparison with zero selecting the 32-bit patterns of
  one and minus one), the product is the sum over the 4096 inner positions, and the bias is added at the column.
-/
import proofs.«180407_j5171140625022_1_alg».proof.Proof.Gen.ReferenceIdeal.Read
import proofs.«180407_j5171140625022_1_alg».proof.Proof.SignDot

noncomputable section

open scoped BigOperators

namespace Cert.ReferenceIdeal.RefValue

open Cert.ReferenceIdeal Cert.ReferenceIdeal.Read Idealize.ShloMosaic Idealize.ShloMosaic.ValueIdx Cert.SignDot

/-- The binarized left operand at (r, k) is the sign of the activation there. -/
theorem lhs_apply (x0 : (⟨S8192x4096, .f32⟩ : BufTy).Contents (Elt Ideal)) (j : S8192x4096.Idx) :
    val_main_v2 (F := Ideal) x0 j = sgn (x0 j) := by
  rw [val_main_v2_apply, val_main_v1_apply, val_main_v0_apply, val_main_call0_v0_apply, val_main_call0_v1_apply,
    val_main_cst_apply, val_main_cst_0_apply, val_main_cst_1_apply]
  rfl

/-- The binarized right operand at (k, q) is the sign of the weight there. -/
theorem rhs_apply (x1 : (⟨S4096x4096, .f32⟩ : BufTy).Contents (Elt Ideal)) (j : S4096x4096.Idx) :
    val_main_v5 (F := Ideal) x1 j = sgn (x1 j) := by
  rw [val_main_v5_apply, val_main_v4_apply, val_main_v3_apply, val_main_call1_v0_apply, val_main_call1_v1_apply,
    val_main_cst_2_apply, val_main_cst_3_apply, val_main_cst_4_apply]
  rfl

/-- The reference's result is the layer of its arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v9 (F := Ideal) x0 x1 x2 = binLinear x0 x1 x2 := by
  funext i
  rw [val_main_v9_apply, val_main_v6_apply, val_main_v8_apply, val_main_v7_apply]
  have eb : idx_main_v7 (idx_main_v8 i) = ix1 (i 1) := funext fun a => Fin.ext (by match a with | ⟨0, _⟩ => rfl)
  have el : ∀ k : Fin 4096, lidx_main_v6 i k = ix2 (i 0) k := fun k => funext fun a => Fin.ext (by
    match a with | ⟨0, _⟩ => rfl | ⟨1, _⟩ => rfl)
  have er : ∀ k : Fin 4096, ridx_main_v6 i k = ix2 k (i 1) := fun k => funext fun a => Fin.ext (by
    match a with | ⟨0, _⟩ => rfl | ⟨1, _⟩ => rfl)
  rw [eb]
  simp only [lhs_apply, rhs_apply, el, er]
  rfl

end Cert.ReferenceIdeal.RefValue

end
-- ==== Proof.KernelCases.lean ====
/-
  What one grid point's body leaves behind, in each of its three control cases, as plain functions of what it loaded.

  The body keeps a 1024 × 1024 accumulator in scratch memory. Write `step a w acc` for "acc plus the product of the
  binarized blocks a and w" (the generated payload of the accumulating store) and `zero` for the zero block (the
  payload of the resetting store). Then:
    at the first inner step (the accumulator is reset, then stepped)      the scratch ends at  step a w zero;
    at a middle inner step (stepped over what the step before left)       the scratch ends at  step a w acc;
    at the last inner step (stepped, then the bias row added and stored)  the scratch ends at  step a w acc  and the
      output block at  (step a w acc) + bias row.
  Every store covers its whole buffer and every load reads a whole buffer, so what is read back after a store is that
  store's payload.
-/
import proofs.«180407_j5171140625022_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- The offsets of a whole-buffer rectangle are all zero. -/
theorem hz : (![0, 0] : Fin 2 → Nat) = fun _ => 0 := funext fun a => by fin_cases a <;> rfl

/-- First inner step: the scratch is reset to the zero block, read back, and stepped. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Middle inner step: the scratch is stepped over what it held. -/
theorem scratch_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S1024x1024) hz]
  simp only [View.readAt_eq_ld, h3.read_unread, h4.read_unread, h7.read_unread, View.ld_unit_zero (S := S1024x1024) hz]

/-- Last inner step: the scratch is stepped over what it held, as at a middle step, -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S1024x1024) hz]
  simp only [View.readAt_eq_ld, h3.read_unread, h4.read_unread, h7.read_unread, View.ld_unit_zero (S := S1024x1024) hz]

/-- and the output block is that stepped accumulator, read back, plus the bias row. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Cases

end
-- ==== Proof.KernelBlocks.lean ====
/-
  Where each grid point's blocks sit in the arrays, and what a run of four consecutive points leaves for write-back.

  The grid is 8 × 4 × 4, enumerated with the last axis fastest: point t has row-block t / 16, column-block
  (t / 4) % 4 and inner step t % 4. At point t the activation block is rows 1024·(t/16) + p and inner positions
  1024·(t%4) + kk; the weight block is inner positions 1024·(t%4) + kk and columns 1024·((t/4)%4) + q; the bias block is
  columns 1024·((t/4)%4) + q of the bias reshaped to one row; the output block is rows 1024·(t/16) + p and columns
  1024·((t/4)%4) + q.

  The scratch accumulator after a point is the accumulating payload of that point's blocks over what the point before
  left, and over the zero block at a first inner step; so after the fourth inner step of a run the block written back
  is the closing payload of four nested accumulating payloads over zero.
-/
import proofs.«180407_j5171140625022_1_alg».proof.Proof.Gen.KernelIdeal.Value
import proofs.«180407_j5171140625022_1_alg».proof.Proof.KernelCases
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Cases

variable {F : FTy → Type} [FloatOps F]
variable (m : (ℓ : Loc nD τ sig) → Buf (Elt F) ℓ)

/-- The four windows' block indices at every grid point, decided over the 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The activation block at point t, entry (p, kk), is the activations at row 1024·(t/16) + p, inner position
    1024·(t%4) + kk. -/
theorem act_block_apply (c : Dev nD) (t : Fin cfg0.N) (p kk : Fin 1024) (r : Fin 8192) (k : Fin 4096)
    (hr : r.val = 1024 * (t.val / 16) + p.val) (hk : k.val = 1024 * (t.val % 4) + kk.val) :
    (iblk m c 0 t : Vec F S1024x1024 .f32) (ix2 p kk) = m ((c : Thread nD τ).loc main_arg0) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 1024 + 1 * p.val = r.val; rw [e0, hr]; omega
  | ⟨1, _⟩ => show win0_0.index t 1 * 1024 + 1 * kk.val = k.val; rw [e1, hk]; omega

/-- The weight block at point t, entry (kk, q), is the weights at inner position 1024·(t%4) + kk, column
    1024·((t/4)%4) + q. -/
theorem wgt_block_apply (c : Dev nD) (t : Fin cfg0.N) (kk q : Fin 1024) (k qq : Fin 4096)
    (hk : k.val = 1024 * (t.val % 4) + kk.val) (hq : qq.val = 1024 * (t.val / 4 % 4) + q.val) :
    (iblk m c 1 t : Vec F S1024x1024 .f32) (ix2 kk q) = m ((c : Thread nD τ).loc main_arg1) (ix2 k qq) := by
  obtain ⟨-, -, e2, e3, -⟩ := idx_facts t
  unfold iblk
  rw [View.read_apply]
  show V m c main_arg1 _ = _
  rw [V_main_arg1]
  congr 1
  funext a
  apply Fin.ext
  match a with
  | ⟨0, _⟩ => show win0_1.index t 0 * 1024 + 1 * kk.val = k.val; rw [e2, hk]; omega
  | ⟨1, _⟩ => show win0_1.index t 1 * 1024 + 1 * q.val = qq.val; rw [e3, hq]; omega

/-- The array the bias window stages is the bias reshaped to one row of 4096. -/
theorem bias_row (c : Dev nD) :
    (V m c main_v0 : S1x4096.Idx → Elt F .f32)
      = shapeCast S1x4096 (m ((c : Thread nD τ).loc main_arg2)) shapeCasts_S4096_S1x4096 := by
  dsimp only [Gen.V, Gen.hostOps0]; after_results; rfl

/-- The bias block at point t, entry (0, q), is the bias at column 1024·((t/4)%4) + q. -/
theorem bias_block_apply (c : Dev nD) (t : Fin cfg0.N) (q : Fin 1024) (qq : Fin 4096)
    (hq : qq.val = 1024 * (t.val / 4 % 4) + q.val) :
    (iblk m c 2 t : Vec F S1x1024 .f32) (ix2 (0 : Fin 1) q) = m ((c : Thread nD τ).loc main_arg2) (ix1 qq) := by
  obtain ⟨-, -, -, -, e4, e5, -⟩ := idx_facts t
  unfold iblk
  rw [View.read_apply]
  show V m c main_v0 _ = _
  rw [bias_row]
  refine shapeCast_apply _ _ _ (ix1 qq) ?_
  rw [Shape.rowMajor_val_two, Shape.rowMajor_val_one]
  show qq.val = (win0_2.index t 0 * 1 + 1 * 0) * 4096 + (win0_2.index t 1 * 1024 + 1 * q.val)
  rw [e4, e5, hq]; omega

/-! ## The scratch accumulator point by point -/

/-- The contents after a point depend on the point's position only. -/
theorem outsAt_congr (c : Dev nD) (a b : ℕ) (ha : a < cfg0.N) (hb : b < cfg0.N) (e : a = b) :
    outsAt0 m c a ha = outsAt0 m c b hb := by
  subst e; rfl

/-- After a first inner step the scratch is that point's accumulating payload over the zero block. -/
theorem scratch_at_first (c : Dev nD) (t : Fin cfg0.N) (h0 : t.val % 4 = 0) :
    (outsAt0 m c t.val t.isLt).2 = k0_pay2 (iblk m c 0 t) (iblk m c 1 t) (k0_pay1 (F := F)) := by
  have h1 : ¬t.val % 4 = 3 := by omega
  rw [outsAt0_A m c t h0 h1]
  dsimp only
  exact scratch_first c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk m c 0 t) (iblk m c 1 t)
    (iblk m c 2 t)

/-- After any later inner step it is that point's accumulating payload over what the point before left. -/
theorem scratch_at_later (c : Dev nD) (t : Fin cfg0.N) (h0 : ¬t.val % 4 = 0) :
    (outsAt0 m c t.val t.isLt).2
      = k0_pay2 (iblk m c 0 t) (iblk m c 1 t)
          (outsAt0 m c (t.val - 1) (Nat.lt_of_le_of_lt (Nat.sub_le _ _) t.isLt)).2 := by
  by_cases h1 : t.val % 4 = 3
  · rw [outsAt0_C m c t h0 h1]
    dsimp only
    exact scratch_last c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t)
      (iblk m c 2 t) (outsAt0 m c (t.val - 1) (Nat.lt_of_le_of_lt (Nat.sub_le _ _) t.isLt)).2
  · rw [outsAt0_B m c t h0 h1]
    dsimp only
    exact scratch_middle c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h)) (iblk m c 0 t)
      (iblk m c 1 t) (iblk m c 2 t) (outsAt0 m c (t.val - 1) (Nat.lt_of_le_of_lt (Nat.sub_le _ _) t.isLt)).2

/-- The output block after a last inner step: the closing payload of that point's accumulating payload over what the
    point before left, with that point's bias block. -/
theorem out_at_last (c : Dev nD) (t : Fin cfg0.N) (h3 : t.val % 4 = 3) :
    (outsAt0 m c t.val t.isLt).1
      = k0_pay3 (k0_pay2 (iblk m c 0 t) (iblk m c 1 t)
          (outsAt0 m c (t.val - 1) (Nat.lt_of_le_of_lt (Nat.sub_le _ _) t.isLt)).2) (iblk m c 2 t) := by
  have h0 : ¬t.val % 4 = 0 := by omega
  rw [outsAt0_C m c t h0 h3]
  dsimp only
  exact out_last c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h3) (iblk m c 0 t) (iblk m c 1 t)
    (iblk m c 2 t) (outsAt0 m c (t.val - 1) (Nat.lt_of_le_of_lt (Nat.sub_le _ _) t.isLt)).2

/-- A whole run: the block written back after the run of four consecutive points t0, t1, t2, t3 (t0 a first inner
    step). -/
theorem run_block (c : Dev nD) (t0 t1 t2 t3 : Fin cfg0.N) (h0 : t0.val % 4 = 0) (h1 : t1.val = t0.val + 1)
    (h2 : t2.val = t1.val + 1) (h3 : t3.val = t2.val + 1) :
    (outsAt0 m c t3.val t3.isLt).1
      = k0_pay3
          (k0_pay2 (iblk m c 0 t3) (iblk m c 1 t3)
            (k0_pay2 (iblk m c 0 t2) (iblk m c 1 t2)
              (k0_pay2 (iblk m c 0 t1) (iblk m c 1 t1)
                (k0_pay2 (iblk m c 0 t0) (iblk m c 1 t0) (k0_pay1 (F := F))))))
          (iblk m c 2 t3) := by
  rw [out_at_last m c t3 (by omega)]
  rw [outsAt_congr m c (t3.val - 1) t2.val _ t2.isLt (by omega), scratch_at_later m c t2 (by omega)]
  rw [outsAt_congr m c (t2.val - 1) t1.val _ t1.isLt (by omega), scratch_at_later m c t1 (by omega)]
  rw [outsAt_congr m c (t1.val - 1) t0.val _ t0.isLt (by omega), scratch_at_first m c t0 h0]

end Cert.KernelIdeal.Blocks

end
-- ==== Proof.KernelPayloads.lean ====
/-
  The body's three payloads at an entry, over the extended reals.

  The zero block is zero everywhere. The accumulating payload at (p, q) is the accumulator there plus
  Σ over the 1024 inner positions kk of sign(a p kk) · sign(w kk q): the comparison with zero selecting the 16-bit
  patterns of one and minus one is the sign, the matrix product into a zero accumulator is the plain sum of products,
  and a change of float format is the identity. The closing payload at (p, q) is the accumulator there plus the bias
  row at column q.
-/
import proofs.«180407_j5171140625022_1_alg».proof.Proof.Gen.KernelIdeal.Skeleton
import proofs.«180407_j5171140625022_1_alg».proof.Proof.SignDot
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.SignDot

/-- The matrix product's dimension numbers: the left operand's axis 1 against the right operand's axis 0. -/
abbrev dd : DotDims S1024x1024 S1024x1024 S1024x1024 := dot_S1024x1024_S1024x1024_S1024x1024_1_0_0_1_n_n

/-- Σ over the inner positions of one block pair of the products of signs, at row p and column q. -/
def blockDot (a w : Vec Ideal S1024x1024 .f32) (p q : Fin 1024) : EReal :=
  ∑ kk : Fin 1024, sgn (a (ix2 p kk)) * sgn (w (ix2 kk q))

/-- The zero block is the zero pattern everywhere. -/
theorem zero_apply (j : S1024x1024.Idx) : k0_pay1 (F := Ideal) j = Ideal.ofBits .f32 0x00000000#32 := by
  unfold k0_pay1
  rw [shapeCast_self]
  rfl

/-- The left operand's index at an output index and a contraction index: the output's row, -/
theorem lhs_row (j : S1024x1024.Idx) (u : dd.contr.Idx) : (dd.lhsIdx j u 0).val = (j 0).val := by
  unfold DotDims.lhsIdx
  rw [dif_neg (show ¬(0 : Fin S1024x1024.rank) ∈ dd.lhsBatch by decide), dif_pos (show (0 : Fin S1024x1024.rank) ∈ dd.lhsNonContracting by decide)]
  rfl
/-- and the contraction's one coordinate. -/
theorem lhs_col (j : S1024x1024.Idx) (u : dd.contr.Idx) : (dd.lhsIdx j u 1).val = (u ⟨0, by decide⟩).val :=
  dd.lhsIdx_val_of_single rfl j u
/-- The right operand's index: the contraction's one coordinate, -/
theorem rhs_row (j : S1024x1024.Idx) (u : dd.contr.Idx) : (dd.rhsIdx j u 0).val = (u ⟨0, by decide⟩).val :=
  dd.rhsIdx_val_of_single rfl j u
/-- and the output's column. -/
theorem rhs_col (j : S1024x1024.Idx) (u : dd.contr.Idx) : (dd.rhsIdx j u 1).val = (j 1).val := by
  unfold DotDims.rhsIdx
  rw [dif_neg (show ¬(1 : Fin S1024x1024.rank) ∈ dd.rhsBatch by decide), dif_pos (show (1 : Fin S1024x1024.rank) ∈ dd.rhsNonContracting by decide)]
  rfl

/-- The left operand's index at output (p, q) and inner position kk is (p, kk). -/
theorem lhs_idx (p q kk : Fin 1024) :
    dd.lhsIdx (ix2 p q) ((contrEquiv1 dd 1024 rfl rfl).symm kk) = ix2 p kk := funext fun a => Fin.ext (by
  have hk := contrEquiv1_symm_val dd 1024 rfl rfl kk
  match a with
  | ⟨0, _⟩ => exact lhs_row _ _
  | ⟨1, _⟩ => exact (lhs_col _ _).trans hk)

/-- The right operand's index there is (kk, q). -/
theorem rhs_idx (p q kk : Fin 1024) :
    dd.rhsIdx (ix2 p q) ((contrEquiv1 dd 1024 rfl rfl).symm kk) = ix2 kk q := funext fun a => Fin.ext (by
  have hk := contrEquiv1_symm_val dd 1024 rfl rfl kk
  match a with
  | ⟨0, _⟩ => exact (rhs_row _ _).trans hk
  | ⟨1, _⟩ => exact rhs_col _ _)

/-- The accumulating payload at (p, q): the accumulator there plus the block pair's sum of products of signs. -/
theorem step_apply (a w acc : Vec Ideal S1024x1024 .f32) (p q : Fin 1024) :
    k0_pay2 a w acc (ix2 p q) = acc (ix2 p q) + blockDot a w p q := by
  unfold k0_pay2
  rw [shapeCast_self]
  refine (addf_apply _ _ _).trans (congrArg (acc (ix2 p q) + ·) ?_)
  refine (Ideal.matmul_constant_zero_apply dd none _ _ (ix2 p q)).trans ?_
  rw [← Equiv.sum_comp (contrEquiv1 dd 1024 rfl rfl).symm]
  unfold blockDot
  refine Finset.sum_congr rfl fun kk _ => ?_
  rw [lhs_idx, rhs_idx]
  exact congrArg₂ (· * ·) (sgn_of_bf16 (a (ix2 p kk))) (sgn_of_bf16 (w (ix2 kk q)))

/-- The closing payload at (p, q): the accumulator there plus the bias row at column q. -/
theorem close_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  rw [shapeCast_self]
  refine (addf_apply _ _ _).trans (congrArg (acc (ix2 p q) + ·) ?_)
  exact broadcastTo_apply bias broadcasts_S1x1024_S1024x1024 (ix2 p q) (ix2 (0 : Fin 1) q) (fun a => by
    match a with
    | ⟨0, _⟩ => rfl
    | ⟨1, _⟩ => rfl)

end Cert.KernelIdeal.Payloads

end
-- ==== Proof.KernelValue.lean ====
/-
  The kernel's output array after the run is the binarized linear layer of its three arguments, over the extended reals.

  The output is written back once per run of four grid points, at the run's last point. There the written block is the
  closing payload over four nested accumulating payloads over zero, so its entry (p, q) is
      ((((0 + D₀) + D₁) + D₂) + D₃) + bias block at q,
  with Dₛ the sum over the 1024 inner positions of the run's s-th block pair of the products of signs. The s-th pair
  sits at inner positions 1024·s + kk of the arrays, at the output block's rows and columns, so Dₛ is the s-th stretch of
  the layer's inner sum at the entry's row and column; zero is the additive unit, and the four stretches added first to
  last are the whole inner sum. The 32 last points' blocks tile the 8192 × 4096 output: row r and column q lie in the
  block of the point with row-block r / 1024 and column-block q / 1024.
-/
import proofs.«180407_j5171140625022_1_alg».proof.Proof.Gen.KernelIdeal.Value
import proofs.«180407_j5171140625022_1_alg».proof.Proof.KernelBlocks
import proofs.«180407_j5171140625022_1_alg».proof.Proof.KernelPayloads
import proofs.«180407_j5171140625022_1_alg».proof.Proof.SignDot
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RefValue

open Cert.KernelIdeal Cert.KernelIdeal.Gen Cert.KernelIdeal.Blocks Cert.KernelIdeal.Payloads Cert.SignDot

variable (m : (ℓ : Loc nD τ sig) → Buf (Elt Ideal) ℓ) (ρ : Dev nD → PrngReg)

/-- A run's written-back block at an entry: the four block pairs' sums added first to last onto zero, then the bias
    block at the entry's column. -/
theorem run_value_apply (a0 w0 a1 w1 a2 w2 a3 w3 : Vec Ideal S1024x1024 .f32) (bias : Vec Ideal S1x1024 .f32)
    (j : S1024x1024.Idx) :
    k0_pay3 (k0_pay2 a3 w3 (k0_pay2 a2 w2 (k0_pay2 a1 w1 (k0_pay2 a0 w0 (k0_pay1 (F := Ideal)))))) bias j
      = (blockDot a0 w0 (j 0) (j 1) + blockDot a1 w1 (j 0) (j 1) + blockDot a2 w2 (j 0) (j 1) + blockDot a3 w3 (j 0) (j 1))
          + bias (ix2 (0 : Fin 1) (j 1)) := by
  obtain ⟨p, q, rfl⟩ : ∃ (p : Fin 1024) (q : Fin 1024), j = ix2 p q := ⟨j 0, j 1, eq_ix2 j⟩
  rw [close_apply, step_apply, step_apply, step_apply, step_apply, zero_apply, Ideal.ofBits_zero_f32, zero_add]

/-- The block pair of a point at inner step s, at rows 1024·(t/16) + p and columns 1024·((t/4)%4) + q, sums to the
    s-th stretch of the layer's inner sum there. -/
theorem block_is_stretch (c : Dev nD) (t : Fin cfg0.N) (s : Fin 4) (hs : t.val % 4 = s.val) (p q : Fin 1024)
    (r : Fin 8192) (qq : Fin 4096) (hr : r.val = 1024 * (t.val / 16) + p.val)
    (hq : qq.val = 1024 * (t.val / 4 % 4) + q.val) :
    blockDot (iblk m c 0 t) (iblk m c 1 t) p q
      = stretchDot (m ((c : Thread nD τ).loc main_arg0)) (m ((c : Thread nD τ).loc main_arg1)) r qq s := by
  unfold blockDot stretchDot
  refine Finset.sum_congr rfl fun kk _ => ?_
  have hk : (pos s kk).val = 1024 * (t.val % 4) + kk.val := by rw [hs]; rfl
  rw [act_block_apply m c t p kk r (pos s kk) hr hk, wgt_block_apply m c t kk q (pos s kk) qq hk hq]

/-- What a run's last point writes back is its block of the layer of the arguments. -/
theorem flushed_eq (c : Dev nD) (t : Fin cfg0.N) (hf : (cfg0.win 3).flush t = true) :
    (dats m 0 c).flushed 3 t = ((cfg0.win 3).blk t).view.read (Elt Ideal)
      (binLinear (m ((c : Thread nD τ).loc main_arg0)) (m ((c : Thread nD τ).loc main_arg1))
        (m ((c : Thread nD τ).loc main_arg2))) := by
  have h3 : t.val % 4 = 3 := (flush0_3 t).mp hf
  have hN : t.val < 128 := lt_of_lt_of_eq t.isLt (show cfg0.N = 128 from N_0)
  have hN' : cfg0.N = 128 := N_0
  obtain ⟨t2, ht2⟩ : ∃ t2 : Fin cfg0.N, t.val = t2.val + 1 := ⟨⟨t.val - 1, by omega⟩, by dsimp only; omega⟩
  obtain ⟨t1, ht1⟩ : ∃ t1 : Fin cfg0.N, t2.val = t1.val + 1 := ⟨⟨t2.val - 1, by omega⟩, by dsimp only; omega⟩
  obtain ⟨t0, ht0⟩ : ∃ t0 : Fin cfg0.N, t1.val = t0.val + 1 := ⟨⟨t1.val - 1, by omega⟩, by dsimp only; omega⟩
  rw [Value.flushed3, run_block m c t0 t1 t2 t (by omega) ht0 ht1 ht2]
  obtain ⟨-, -, -, -, -, -, e6, e7⟩ := idx_facts t
  funext j
  have hj0 : (j 0).val < 1024 := (j 0).isLt
  have hj1 : (j 1).val < 1024 := (j 1).isLt
  -- the entry's row and column in the whole arrays
  obtain ⟨r, hr⟩ : ∃ r : Fin 8192, r.val = 1024 * (t.val / 16) + (j 0).val := ⟨⟨1024 * (t.val / 16) + (j 0).val, by omega⟩, rfl⟩
  obtain ⟨qq, hq⟩ : ∃ qq : Fin 4096, qq.val = 1024 * (t.val / 4 % 4) + (j 1).val :=
    ⟨⟨1024 * (t.val / 4 % 4) + (j 1).val, by omega⟩, rfl⟩
  have he : ((cfg0.win 3).blk t).view.emb j = ix2 r qq := funext fun a => Fin.ext (by
    match a with
    | ⟨0, _⟩ => show win0_3.index t 0 * 1024 + 1 * (j 0).val = r.val; rw [e6, hr]; omega
    | ⟨1, _⟩ => show win0_3.index t 1 * 1024 + 1 * (j 1).val = qq.val; rw [e7, hq]; omega)
  show k0_pay3 (F := Ideal) _ _ (win0_3.xinj (grid0.coords t) j) = binLinear _ _ _ (((cfg0.win 3).blk t).view.emb j)
  rw [he, layer_apply]
  refine (run_value_apply _ _ _ _ _ _ _ _ _ (win0_3.xinj (grid0.coords t) j)).trans ?_
  exact congrArg₂ (· + ·)
    (congrArg₂ (· + ·)
      (congrArg₂ (· + ·)
        (congrArg₂ (· + ·)
          (block_is_stretch m c t0 0 (by show _ = 0; omega) (win0_3.xinj (grid0.coords t) j 0) (win0_3.xinj (grid0.coords t) j 1) r qq
            (by show r.val = 1024 * (t0.val / 16) + (j 0).val; omega) (by show qq.val = 1024 * (t0.val / 4 % 4) + (j 1).val; omega))
          (block_is_stretch m c t1 1 (by show _ = 1; omega) (win0_3.xinj (grid0.coords t) j 0) (win0_3.xinj (grid0.coords t) j 1) r qq
            (by show r.val = 1024 * (t1.val / 16) + (j 0).val; omega) (by show qq.val = 1024 * (t1.val / 4 % 4) + (j 1).val; omega)))
        (block_is_stretch m c t2 2 (by show _ = 2; omega) (win0_3.xinj (grid0.coords t) j 0) (win0_3.xinj (grid0.coords t) j 1) r qq
            (by show r.val = 1024 * (t2.val / 16) + (j 0).val; omega) (by show qq.val = 1024 * (t2.val / 4 % 4) + (j 1).val; omega)))
      (block_is_stretch m c t 3 (by show _ = 3; omega) (win0_3.xinj (grid0.coords t) j 0) (win0_3.xinj (grid0.coords t) j 1) r qq
            (by show r.val = 1024 * (t.val / 16) + (j 0).val; omega) (by show qq.val = 1024 * (t.val / 4 % 4) + (j 1).val; omega)))
    (bias_block_apply m c t (win0_3.xinj (grid0.coords t) j 1) qq (by show qq.val = 1024 * (t.val / 4 % 4) + (j 1).val; omega))

/-- An index of the output array is in a point's block iff each coordinate is in the block's range on its axis. -/
theorem mem_out_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the output is in the block some last point writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN' : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e6, e7⟩ := idx_facts t
  refine ⟨t, (flush0_3 t).mpr (by omega), ?_⟩
  rw [mem_out_block]
  intro a
  match a with
  | ⟨0, _⟩ =>
    show win0_3.index t 0 * 1024 ≤ (i 0).val ∧ (i 0).val < win0_3.index t 0 * 1024 + 1024
    rw [e6]; omega
  | ⟨1, _⟩ =>
    show win0_3.index t 1 * 1024 ≤ (i 1).val ∧ (i 1).val < win0_3.index t 1 * 1024 + 1024
    rw [e7]; omega

/-- So the output array after the run is the layer of the arguments. -/
theorem final_out (c : Dev nD) :
    (dats m 0 c).arrAt 3 cfg0.N = binLinear (m ((c : Thread nD τ).loc main_arg0)) (m ((c : Thread nD τ).loc main_arg1))
      (m ((c : Thread nD τ).loc main_arg2)) :=
  (dats m 0 c).arrAt_eq_of_cover 3 _ (flushed_eq m c) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = binLinear (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c), (h c).2⟩) (Value.run_blocks m ρ)

end Cert.KernelIdeal.RefValue

end
-- ==== Proof.lean ====
/- The binarized linear layer: a tiled kernel against its plain reference, equal over the extended reals.

   Both programs compute, for activations X (8192 × 4096), weights W (4096 × 4096) and a bias b (4096),
       out r q = Σₖ sign(X r k) · sign(W k q) + b q,      sign x = 1 where x > 0, −1 elsewhere.
   The reference does it with one matrix product of the two sign matrices and one addition. The kernel walks an
   8 × 4 × 4 grid of 1024-blocks with the inner axis fastest: at each point it adds the product of the binarized blocks
   into a scratch accumulator (zeroed at the first inner step) and at the fourth inner step adds the bias row and stores
   the output block. So its entry is ((((0 + S₀) + S₁) + S₂) + S₃) + b q with Sₛ the s-th stretch of 1024 inner positions,
   which is the reference's entry because zero is the additive unit and the four stretches added first to last are the
   whole sum; no finiteness of the inputs is used. The kernel's ±1 are 16-bit patterns and the reference's 32-bit ones;
   both denote the reals 1 and −1.

   The three frames are the generated runs (the reference's with its result dropped); the idealization rewrote nothing,
   so its conjunct is trivial; the value claim sets the kernel's run (output array = the layer of the arguments) beside
   the reference's run (result = the layer of the arguments) on arguments that agree. -/
import proofs.«180407_j5171140625022_1_alg».proof.Defs
import proofs.«180407_j5171140625022_1_alg».proof.Proof.Gen.Kernel
import proofs.«180407_j5171140625022_1_alg».proof.Proof.Gen.Kernel.Skeleton
import proofs.«180407_j5171140625022_1_alg».proof.Proof.Gen.Kernel.Launch
import proofs.«180407_j5171140625022_1_alg».proof.Proof.Gen.Kernel.Points
import proofs.«180407_j5171140625022_1_alg».proof.Proof.Gen.Kernel.Frame
import proofs.«180407_j5171140625022_1_alg».proof.Proof.Gen.KernelIdeal
import proofs.«180407_j5171140625022_1_alg».proof.Proof.Gen.KernelIdeal.Skeleton
import proofs.«180407_j5171140625022_1_alg».proof.Proof.Gen.KernelIdeal.Launch
import proofs.«180407_j5171140625022_1_alg».proof.Proof.Gen.KernelIdeal.Points
import proofs.«180407_j5171140625022_1_alg».proof.Proof.Gen.KernelIdeal.Frame
import proofs.«180407_j5171140625022_1_alg».proof.Proof.Gen.ReferenceIdeal
import proofs.«180407_j5171140625022_1_alg».proof.Proof.Gen.Pre_finite_inputs
import proofs.«180407_j5171140625022_1_alg».proof.Proof.Gen.KernelIdeal.Value
import proofs.«180407_j5171140625022_1_alg».proof.Proof.Gen.ReferenceIdeal.Run
import proofs.«180407_j5171140625022_1_alg».proof.Proof.Gen.ReferenceIdeal.Read
import proofs.«180407_j5171140625022_1_alg».proof.Proof.SignDot
import proofs.«180407_j5171140625022_1_alg».proof.Proof.RefIsSpec
import proofs.«180407_j5171140625022_1_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments unchanged: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's output array and the reference's result are both the layer of arguments that
    agree. -/
theorem algebraic : Cert.algebraic_KernelIdeal_ReferenceIdeal := by
  intro m ρ m' ρ' _ hagree
  refine ⟨fun c => Cert.SignDot.binLinear (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
